-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1024 : Shape := ⟨3, ![8, 256, 1024]⟩
abbrev S8x64x1024 : Shape := ⟨3, ![8, 64, 1024]⟩
abbrev S128x1024 : Shape := ⟨2, ![128, 1024]⟩
abbrev S128 : Shape := ⟨1, ![128]⟩
abbrev S_ : Shape := ⟨0, ![]⟩

class Facts : Prop where
  bcast_S_S8x256x1024 : S_.BroadcastsInDim S8x256x1024 (![] : Fin 0 → Fin S8x256x1024.rank)
  reducesTo_S8x256x1024_S_d0_1_2 : S8x256x1024.ReducesTo [0, 1, 2] S_
  h_S_ : 0 < S_.numel
  bcast_S_S8x64x1024 : S_.BroadcastsInDim S8x64x1024 (![] : Fin 0 → Fin S8x64x1024.rank)
  reducesTo_S8x64x1024_S_d0_1_2 : S8x64x1024.ReducesTo [0, 1, 2] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x256x1024 .f32) (main_arg1 : FVec F S8x64x1024 .f32) (main_arg2 : FVec F S128x1024 .f32) (main_arg3 : FVec F S128 .f32) : IVec S_ 1 :=
  let main_v0 : FVec F S8x256x1024 .f32 := Host.absf main_arg0
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  let main_c : IVec S_ 1 := constantI S_ 1 1#1
  let main_v3 : IVec S_ 1 := (fun x v => Host.reduce IntOp.andi x v reducesTo_S8x256x1024_S_d0_1_2 h_S_) main_v2 main_c
  let main_v4 : FVec F S8x64x1024 .f32 := Host.absf main_arg1
  let main_cst_0 : FVec F S_ .f32 := constant S_ .f32 0x7F800000#32
  let main_v5 : FVec F S8x64x1024 .f32 := broadcastInDim S8x64x1024 ![] bcast_S_S8x64x1024 main_cst_0
  let main_v6 : IVec S8x64x1024 1 := cmpf .olt main_v4 main_v5
  let main_c_1 : IVec S_ 1 := constantI S_ 1 1#1
  let main_v7 : IVec S_ 1 := (fun x v => Host.reduce IntOp.andi x v reducesTo_S8x64x1024_S_d0_1_2 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x256x1024 : Shape := ⟨3, ![8, 256, 1024]⟩
abbrev S8x64x1024 : Shape := ⟨3, ![8, 64, 1024]⟩
abbrev S128x1024 : Shape := ⟨2, ![128, 1024]⟩
abbrev S128 : Shape := ⟨1, ![128]⟩
abbrev S8x256x64x128 : Shape := ⟨4, ![8, 256, 64, 128]⟩
abbrev S1x256x1024 : Shape := ⟨3, ![1, 256, 1024]⟩
abbrev S1x64x1024 : Shape := ⟨3, ![1, 64, 1024]⟩
abbrev S1x256x64x128 : Shape := ⟨4, ![1, 256, 64, 128]⟩
abbrev S256x1024 : Shape := ⟨2, ![256, 1024]⟩
abbrev S64x1024 : Shape := ⟨2, ![64, 1024]⟩
abbrev S256x128 : Shape := ⟨2, ![256, 128]⟩
abbrev S1x128 : Shape := ⟨2, ![1, 128]⟩
abbrev S64x128 : Shape := ⟨2, ![64, 128]⟩
abbrev S16x128 : Shape := ⟨2, ![16, 128]⟩
abbrev S256x1x128 : Shape := ⟨3, ![256, 1, 128]⟩
abbrev S1x16x128 : Shape := ⟨3, ![1, 16, 128]⟩
abbrev S256x16x128 : Shape := ⟨3, ![256, 16, 128]⟩
abbrev S256x16 : Shape := ⟨2, ![256, 16]⟩
abbrev S256x16x1 : Shape := ⟨3, ![256, 16, 1]⟩
abbrev S1x256x16x128 : Shape := ⟨4, ![1, 256, 16, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S8x64x1024, .f32⟩
  | .hbm, ⟨2, _⟩ => ⟨S128x1024, .f32⟩
  | .hbm, ⟨3, _⟩ => ⟨S128, .f32⟩
  | .hbm, ⟨4, _⟩ => ⟨S128x1024, .bf16⟩
  | .hbm, ⟨5, _⟩ => ⟨S8x256x64x128, .f32⟩
  | .local _ .vmem, ⟨0, _⟩ => ⟨S1x256x1024, .f32⟩
  | .local _ .vmem, ⟨1, _⟩ => ⟨S1x256x1024, .f32⟩
  | .local _ .vmem, ⟨2, _⟩ => ⟨S1x64x1024, .f32⟩
  | .local _ .vmem, ⟨3, _⟩ => ⟨S1x64x1024, .f32⟩
  | .local _ .vmem, ⟨4, _⟩ => ⟨S128x1024, .bf16⟩
  | .local _ .vmem, ⟨5, _⟩ => ⟨S128, .f32⟩
  | .local _ .vmem, ⟨6, _⟩ => ⟨S1x256x64x128, .f32⟩
  | .local _ .vmem, ⟨7, _⟩ => ⟨S1x256x64x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  slices_S64x128_o0_0_S16x128 : S64x128.Slices ![0, 0] S16x128
  shapeCasts_S256x128_S256x1x128 : S256x128.ShapeCasts S256x1x128
  shapeCasts_S16x128_S1x16x128 : S16x128.ShapeCasts S1x16x128
  broadcasts_S256x1x128_S256x16x128 : S256x1x128.Broadcasts S256x16x128
  broadcasts_S1x16x128_S256x16x128 : S1x16x128.Broadcasts S256x16x128
  reduces_S256x16x128_S256x16 : S256x16x128.Reduces [2] S256x16
  shapeCasts_S256x16_S256x16x1 : S256x16.ShapeCasts S256x16x1
  broadcasts_S256x16x1_S256x16x128 : S256x16x1.Broadcasts S256x16x128
  inb_S1x256x64x128_S1x256x16x128_0_0_0_0 : ∀ a, (![0, 0, 0, 0] : Fin 4 → Nat) a + S1x256x16x128.size a ≤ S1x256x64x128.size a
  h_S1x256x16x128 : 0 < S1x256x16x128.numel
  shapeCasts_S1x256x16x128_S256x16x128 : S1x256x16x128.ShapeCasts S256x16x128
  shapeCasts_S256x16x128_S1x256x16x128 : S256x16x128.ShapeCasts S1x256x16x128
  slices_S64x128_o16_0_S16x128 : S64x128.Slices ![16, 0] S16x128
  inb_S1x256x64x128_S1x256x16x128_0_0_16_0 : ∀ a, (![0, 0, 16, 0] : Fin 4 → Nat) a + S1x256x16x128.size a ≤ S1x256x64x128.size a
  slices_S64x128_o32_0_S16x128 : S64x128.Slices ![32, 0] S16x128
  inb_S1x256x64x128_S1x256x16x128_0_0_32_0 : ∀ a, (![0, 0, 32, 0] : Fin 4 → Nat) a + S1x256x16x128.size a ≤ S1x256x64x128.size a
  slices_S64x128_o48_0_S16x128 : S64x128.Slices ![48, 0] S16x128
  inb_S1x256x64x128_S1x256x16x128_0_0_48_0 : ∀ a, (![0, 0, 48, 0] : Fin 4 → Nat) a + S1x256x16x128.size a ≤ S1x256x64x128.size a
  dot_S256x1024_S128x1024_S256x128_1_1_0_0_n_n_wf : DotDims.WF S256x1024 S128x1024 S256x128 [1] [1] [0] [0] [] []
  dot_S64x1024_S128x1024_S64x128_1_1_0_0_n_n_wf : DotDims.WF S64x1024 S128x1024 S64x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x1024.size a
  hwx0_0 : ∀ i : grid0.Coords, EltTy.bits .f32 = 32 ∨ (Rect.block (s := S8x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x1024.size a
  hwx0_1 : ∀ i : grid0.Coords, EltTy.bits .f32 = 32 ∨ (Rect.block (s := S8x64x1024) S1x64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64x128.size a ≤ S8x256x64x128.size a
  hwx0_4 : ∀ i : grid0.Coords, EltTy.bits .f32 = 32 ∨ (Rect.block (s := S8x256x64x128) S1x256x64x128.size (cc0_transform_4 i) (hinb0_4 i)).WholeWords (EltTy.packing .f32)

variable [Facts₀]

def dot_S256x1024_S128x1024_S256x128_1_1_0_0_n_n : DotDims S256x1024 S128x1024 S256x128 where
  lhsContracting := [1]
  rhsContracting := [1]
  lhsNonContracting := [0]
  rhsNonContracting := [0]
  lhsBatch := []
  rhsBatch := []
  wf := dot_S256x1024_S128x1024_S256x128_1_1_0_0_n_n_wf
def dot_S64x1024_S128x1024_S64x128_1_1_0_0_n_n : DotDims S64x1024 S128x1024 S64x128 where
  lhsContracting := [1]
  rhsContracting := [1]
  lhsNonContracting := [0]
  rhsNonContracting := [0]
  lhsBatch := []
  rhsBatch := []
  wf := dot_S64x1024_S128x1024_S64x128_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x1024 : Shape := ⟨3, ![8, 256, 1024]⟩
abbrev S8x64x1024 : Shape := ⟨3, ![8, 64, 1024]⟩
abbrev S128x1024 : Shape := ⟨2, ![128, 1024]⟩
abbrev S128 : Shape := ⟨1, ![128]⟩
abbrev S8x256x1x1024 : Shape := ⟨4, ![8, 256, 1, 1024]⟩
abbrev S8x1x64x1024 : Shape := ⟨4, ![8, 1, 64, 1024]⟩
abbrev S8x256x64x1024 : Shape := ⟨4, ![8, 256, 64, 1024]⟩
abbrev S8x256x64x128 : Shape := ⟨4, ![8, 256, 64, 128]⟩
abbrev S1x1x1x128 : Shape := ⟨4, ![1, 1, 1, 128]⟩
abbrev S_ : Shape := ⟨0, ![]⟩
abbrev S8x256x64 : Shape := ⟨3, ![8, 256, 64]⟩
abbrev S8x256x64x1 : Shape := ⟨4, ![8, 256, 64, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x64x1024, .f32⟩
  | .hbm, ⟨2, _⟩ => ⟨S128x1024, .f32⟩
  | .hbm, ⟨3, _⟩ => ⟨S128, .f32⟩
  | .hbm, ⟨4, _⟩ => ⟨S8x256x1x1024, .f32⟩
  | .hbm, ⟨5, _⟩ => ⟨S8x1x64x1024, .f32⟩
  | .hbm, ⟨6, _⟩ => ⟨S8x256x64x1024, .f32⟩
  | .hbm, ⟨7, _⟩ => ⟨S8x256x64x1024, .f32⟩
  | .hbm, ⟨8, _⟩ => ⟨S8x256x64x1024, .f32⟩
  | .hbm, ⟨9, _⟩ => ⟨S8x256x64x128, .f32⟩
  | .hbm, ⟨10, _⟩ => ⟨S1x1x1x128, .f32⟩
  | .hbm, ⟨11, _⟩ => ⟨S8x256x64x128, .f32⟩
  | .hbm, ⟨12, _⟩ => ⟨S8x256x64x128, .f32⟩
  | .hbm, ⟨13, _⟩ => ⟨S_, .f32⟩
  | .hbm, ⟨14, _⟩ => ⟨S8x256x64, .f32⟩
  | .hbm, ⟨15, _⟩ => ⟨S_, .f32⟩
  | .hbm, ⟨16, _⟩ => ⟨S8x256x64, .f32⟩
  | .hbm, ⟨17, _⟩ => ⟨S8x256x64, .f32⟩
  | .hbm, ⟨18, _⟩ => ⟨S8x256x64x1, .f32⟩
  | .hbm, ⟨19, _⟩ => ⟨S8x256x64x128, .f32⟩
  | .hbm, ⟨20, _⟩ => ⟨S8x256x64x128, .f32⟩
  | .hbm, ⟨21, _⟩ => ⟨S8x256x64x128, .f32⟩
  | .hbm, ⟨22, _⟩ => ⟨S_, .f32⟩
  | .hbm, ⟨23, _⟩ => ⟨S8x256x64, .f32⟩
  | .hbm, ⟨24, _⟩ => ⟨S8x256x64x1, .f32⟩
  | .hbm, ⟨25, _⟩ => ⟨S8x256x64x128, .f32⟩
  | .hbm, ⟨26, _⟩ => ⟨S8x256x64x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S8x256x1024_S8x256x1x1024_0_1_3 : S8x256x1024.BroadcastsInDim S8x256x1x1024 (![0, 1, 3] : Fin 3 → Fin S8x256x1x1024.rank)
  bcast_S8x64x1024_S8x1x64x1024_0_2_3 : S8x64x1024.BroadcastsInDim S8x1x64x1024 (![0, 2, 3] : Fin 3 → Fin S8x1x64x1024.rank)
  bcast_S8x256x1x1024_S8x256x64x1024_0_1_2_3 : S8x256x1x1024.BroadcastsInDim S8x256x64x1024 (![0, 1, 2, 3] : Fin 4 → Fin S8x256x64x1024.rank)
  bcast_S8x1x64x1024_S8x256x64x1024_0_1_2_3 : S8x1x64x1024.BroadcastsInDim S8x256x64x1024 (![0, 1, 2, 3] : Fin 4 → Fin S8x256x64x1024.rank)
  bcast_S128_S1x1x1x128_3 : S128.BroadcastsInDim S1x1x1x128 (![3] : Fin 1 → Fin S1x1x1x128.rank)
  bcast_S1x1x1x128_S8x256x64x128_0_1_2_3 : S1x1x1x128.BroadcastsInDim S8x256x64x128 (![0, 1, 2, 3] : Fin 4 → Fin S8x256x64x128.rank)
  reducesTo_S8x256x64x128_S8x256x64_d3 : S8x256x64x128.ReducesTo [3] S8x256x64
  h_S_ : 0 < S_.numel
  bcast_S_S8x256x64 : S_.BroadcastsInDim S8x256x64 (![] : Fin 0 → Fin S8x256x64.rank)
  bcast_S8x256x64_S8x256x64x1_0_1_2 : S8x256x64.BroadcastsInDim S8x256x64x1 (![0, 1, 2] : Fin 3 → Fin S8x256x64x1.rank)
  bcast_S8x256x64x1_S8x256x64x128_0_1_2_3 : S8x256x64x1.BroadcastsInDim S8x256x64x128 (![0, 1, 2, 3] : Fin 4 → Fin S8x256x64x128.rank)
  dot_S8x256x64x1024_S128x1024_S8x256x64x128_3_1_012_0_n_n_wf : DotDims.WF S8x256x64x1024 S128x1024 S8x256x64x128 [3] [1] [0, 1, 2] [0] [] []

variable [Facts₀]

def dot_S8x256x64x1024_S128x1024_S8x256x64x128_3_1_012_0_n_n : DotDims S8x256x64x1024 S128x1024 S8x256x64x128 where
  lhsContracting := [3]
  rhsContracting := [1]
  lhsNonContracting := [0, 1, 2]
  rhsNonContracting := [0]
  lhsBatch := []
  rhsBatch := []
  wf := dot_S8x256x64x1024_S128x1024_S8x256x64x128_3_1_012_0_n_n_wf

class Facts : Prop extends Facts₀ where

variable [Facts]
-- ==== Proof.Spec.lean ====
/-
  The joiner's result as one function of the four argument arrays, over the extended reals.

  For a batch `b`, an encoder step `t`, a decoder step `u` and a vocabulary entry `v` the logit is
  the inner product over the hidden axis of (encoder row + decoder row) with row `v` of the weight, plus the bias;
  the result is the softmax of the 128 logits of (b, t, u), taken with the row's maximum subtracted first.
  The two programs spell the logit differently: one applies the weight to the sum of the two rows and then adds the
  bias (`logitSum`), the other applies it to each row, adds the bias to the encoder's part and then adds the decoder's
  part (`logitSplit`). The two agree when every entry is a real number: the product distributes over the sum of two
  reals, a finite sum of sums splits, and addition on the extended reals is commutative and associative. Distributivity
  is the one step that needs finiteness (on the extended reals `(1 + (-1)) * ⊤ = 0` while `1 * ⊤ + (-1) * ⊤ = ⊥`).
-/
import Idealize.ShloMosaic.PureOps.Ideal.Laws
import Idealize.ShloMosaic.Lib.ValueIdx

noncomputable section

namespace Cert.Joiner

open Idealize.ShloMosaic Idealize.ShloMosaic.ValueIdx

abbrev SEnc : Shape := ⟨3, ![8, 256, 1024]⟩
abbrev SDec : Shape := ⟨3, ![8, 64, 1024]⟩
abbrev SWt : Shape := ⟨2, ![128, 1024]⟩
abbrev SBias : Shape := ⟨1, ![128]⟩
abbrev SOut : Shape := ⟨4, ![8, 256, 64, 128]⟩

/-- The value both programs start a row's maximum from: the f32 word of −∞, never evaluated. -/
def negInf : EReal := Ideal.ofBits .f32 0xFF800000#32

/-- The maximum of a row of 128 logits, folded from `negInf`. -/
def rowMax (L : Fin 128 → EReal) : EReal := (Finset.univ : Finset (Fin 128)).fold max negInf L

/-- The fold starts at `negInf`, so it is at least `negInf`: taking the maximum with `negInf` once more changes nothing. -/
theorem max_negInf_rowMax (L : Fin 128 → EReal) : max negInf (rowMax L) = rowMax L :=
  max_eq_right ((Finset.le_fold_max negInf).2 (Or.inl le_rfl))

/-- Softmax of a row at entry `v`: exp (L v − max) over the sum of exp (L k − max). -/
def soft (L : Fin 128 → EReal) (v : Fin 128) : EReal :=
  Ideal.div (Ideal.exp (L v - rowMax L)) (∑ k : Fin 128, Ideal.exp (L k - rowMax L))

variable (enc : SEnc.Idx → EReal) (dec : SDec.Idx → EReal) (w : SWt.Idx → EReal) (bias : SBias.Idx → EReal)

/-- The logit with the weight applied to each row separately, the bias added to the encoder's part. -/
def logitSplit (b : Fin 8) (t : Fin 256) (u : Fin 64) (v : Fin 128) : EReal :=
  ((∑ h : Fin 1024, enc (ix3 b t h) * w (ix2 v h)) + bias (ix1 v)) + ∑ h : Fin 1024, dec (ix3 b u h) * w (ix2 v h)

/-- The logit with the weight applied to the sum of the two rows, the bias added last. -/
def logitSum (b : Fin 8) (t : Fin 256) (u : Fin 64) (v : Fin 128) : EReal :=
  (∑ h : Fin 1024, (enc (ix3 b t h) + dec (ix3 b u h)) * w (ix2 v h)) + bias (ix1 v)

/-- On real entries the two spellings of the logit agree. -/
theorem logitSum_eq_logitSplit (he : ∀ i, ∃ r : ℝ, enc i = r) (hd : ∀ i, ∃ r : ℝ, dec i = r) (hw : ∀ i, ∃ r : ℝ, w i = r)
    (b : Fin 8) (t : Fin 256) (u : Fin 64) (v : Fin 128) :
    logitSum enc dec w bias b t u v = logitSplit enc dec w bias b t u v := by
  unfold logitSum logitSplit
  have hdist : ∀ h : Fin 1024, (enc (ix3 b t h) + dec (ix3 b u h)) * w (ix2 v h)
      = enc (ix3 b t h) * w (ix2 v h) + dec (ix3 b u h) * w (ix2 v h) := by
    intro h
    obtain ⟨e, he'⟩ := he (ix3 b t h)
    obtain ⟨d, hd'⟩ := hd (ix3 b u h)
    obtain ⟨x, hw'⟩ := hw (ix2 v h)
    rw [he', hd', hw', ← EReal.coe_add, ← EReal.coe_mul, ← EReal.coe_mul, ← EReal.coe_mul, ← EReal.coe_add, add_mul]
  rw [Finset.sum_congr rfl (fun h _ => hdist h), Finset.sum_add_distrib, add_right_comm]

/-- One batch's part of the result from that batch's rows: `P0` the batch's encoder rows [1, 256, 1024], `P3` its decoder rows
    [1, 64, 1024], `P1` the weight, `P2` the bias; at (0, t, u, v) the softmax at `v` of the row of split logits of (t, u). -/
def blockG (P0 : (⟨3, ![1, 256, 1024]⟩ : Shape).Idx → EReal) (P1 : SWt.Idx → EReal) (P2 : SBias.Idx → EReal)
    (P3 : (⟨3, ![1, 64, 1024]⟩ : Shape).Idx → EReal) : (⟨4, ![1, 256, 64, 128]⟩ : Shape).Idx → EReal := fun y =>
  soft (fun v => ((∑ h : Fin 1024, P0 (ix3 0 (y 1) h) * P1 (ix2 v h)) + P2 (ix1 v))
    + ∑ h : Fin 1024, P3 (ix3 0 (y 2) h) * P1 (ix2 v h)) (y 3)

/-- The result array: at (b, t, u, v) the softmax, at `v`, of the row of logits of (b, t, u). -/
def G : SOut.Idx → EReal := fun i => soft (logitSplit enc dec w bias (i 0) (i 1) (i 2)) (i 3)

/-- The same with the logit in its other spelling. -/
def GSum : SOut.Idx → EReal := fun i => soft (logitSum enc dec w bias (i 0) (i 1) (i 2)) (i 3)

theorem GSum_eq_G (he : ∀ i, ∃ r : ℝ, enc i = r) (hd : ∀ i, ∃ r : ℝ, dec i = r) (hw : ∀ i, ∃ r : ℝ, w i = r) :
    GSum enc dec w bias = G enc dec w bias := by
  funext i
  unfold GSum G
  congr 1
  funext v
  exact logitSum_eq_logitSplit enc dec w bias he hd hw (i 0) (i 1) (i 2) v

end Cert.Joiner

end
-- ==== Proof.Finite.lean ====
/-
  The precondition computes, for each of the four argument arrays, the conjunction over all entries x of
  the comparison |x| < +∞ (with |x| = max x (-x) and +∞ the value of the word 0x7F800000), and then the
  conjunction of the four answers. If the result is the all-ones word, every one of these comparisons is
  true; an extended real x with max x (-x) < ⊤ is neither ⊤ nor ⊥, so it is a real number.
-/
import proofs.«180478_j56075093017101_2_alg».proof.Pre_finite_inputs
import Idealize.ShloMosaic.Lib.ReduceAll
import Idealize.ShloMosaic.Lib.ValueIdx
import Idealize.ShloMosaic.PureOps.Ideal.Laws

namespace Cert.Joiner.Finite

open Idealize.ShloMosaic

/-- The word 0x7F800000 denotes +∞. -/
theorem inf_word : Ideal.ofBits .f32 0x7F800000#32 = (⊤ : EReal) := by simp [Ideal.ofBits, Ideal.ieee]

/-- An extended real whose absolute value max x (-x) compares below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The result shape of a reduction over all axes has one index. -/
instance : Subsingleton Cert.Pre_finite_inputs.S_.Idx := ⟨fun a b => funext fun d => d.elim0⟩

theorem real_of_pre [Cert.Pre_finite_inputs.Facts]
    (x0 : FVec Ideal Cert.Pre_finite_inputs.S8x256x1024 .f32) (x1 : FVec Ideal Cert.Pre_finite_inputs.S8x64x1024 .f32)
    (x2 : FVec Ideal Cert.Pre_finite_inputs.S128x1024 .f32) (x3 : FVec Ideal Cert.Pre_finite_inputs.S128 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt (x0 i) (Host.reduce_andi_all _ _ _ _ _ h0' i)
  · exact real_of_abs_lt (x1 i) (Host.reduce_andi_all _ _ _ _ _ h1 i)
  · exact real_of_abs_lt (x2 i) (Host.reduce_andi_all _ _ _ _ _ h2 i)
  · exact real_of_abs_lt (x3 i) (Host.reduce_andi_all _ _ _ _ _ h3 i)

end Cert.Joiner.Finite
-- ==== Proof.RefIsG.lean ====
/-
  The reference's result is the specification.

  The reference computes, for every (b, t, u, v):
  * the logit: the encoder row (b, t) and the decoder row (b, u), each copied along the axis the other brings, are
    added entry by entry; the sum is contracted with row v of the weight over the hidden axis; the bias, copied along
    the three leading axes, is added. This is the logit with the weight applied to the sum of the two rows.
  * the row's maximum: the fold of max over the 128 logits of (b, t, u), started from the word of −∞, and then the
    maximum of that with −∞ once more, which changes nothing because the fold is already at least its start.
  * the numerator: exp of (logit − that maximum), the maximum copied along the last axis.
  * the denominator: the word of zero, which is the real 0, plus the sum of the 128 numerators of (b, t, u).
  * the quotient of the two: the softmax of the row of logits at v.
-/
import proofs.«180478_j56075093017101_2_alg».proof.Proof.Gen.ReferenceIdeal.Read
import proofs.«180478_j56075093017101_2_alg».proof.Proof.Spec

noncomputable section

namespace Cert.Joiner.RefIsG

open Cert.ReferenceIdeal Cert.ReferenceIdeal.Gen Cert.ReferenceIdeal.Read Idealize.ShloMosaic Idealize.ShloMosaic.ValueIdx

variable (x0 : (⟨S8x256x1024, .f32⟩ : BufTy).Contents (Elt Ideal)) (x1 : (⟨S8x64x1024, .f32⟩ : BufTy).Contents (Elt Ideal))
  (x2 : (⟨S128x1024, .f32⟩ : BufTy).Contents (Elt Ideal)) (x3 : (⟨S128, .f32⟩ : BufTy).Contents (Elt Ideal))

/-- The sum of the two copied rows, contracted with the weight, plus the copied bias, is the logit of the sum of rows. -/
theorem logits_eq (b : Fin 8) (t : Fin 256) (u : Fin 64) (v : Fin 128) :
    val_main_v8 (F := Ideal) x0 x1 x2 x3 (ix4 b t u v) = Cert.Joiner.logitSum x0 x1 x2 x3 b t u v := by
  rw [val_main_v8_apply, val_main_v5_apply, val_main_v7_apply, val_main_v6_apply]
  unfold Cert.Joiner.logitSum
  refine congrArg₂ (· + ·) (Finset.sum_congr rfl fun k _ => ?_) (congrArg x3 ?_)
  · rw [val_main_v4_apply, val_main_v2_apply, val_main_v0_apply, val_main_v3_apply, val_main_v1_apply]
    refine congrArg₂ (· * ·) (congrArg₂ (· + ·) (congrArg x0 ?_) (congrArg x1 ?_)) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- Dropping the last axis of an [8, 256, 64, 128] array leaves an [8, 256, 64] one. -/
theorem red : S8x256x64x128.Reduces [3] S8x256x64 := by decide

/-- The fold of max over the last axis, started from the word of −∞, is the row's maximum of the 128 logits. -/
theorem fold_eq (b : Fin 8) (t : Fin 256) (u : Fin 64) :
    val_main_v9 (F := Ideal) x0 x1 x2 x3 (ix3 b t u) = Cert.Joiner.rowMax (Cert.Joiner.logitSum x0 x1 x2 x3 b t u) := by
  unfold val_main_v9
  rw [Host.reduce_eq_fold_single FloatOps.maximumf _ _ reducesTo_S8x256x64x128_S8x256x64_d3 red h_S_ (ix3 b t u),
    val_main_cst_apply]
  have hf : (val_main_v8 (F := Ideal) x0 x1 x2 x3 ∘ red.lift (ix3 b t u)) = Cert.Joiner.logitSum x0 x1 x2 x3 b t u := by
    funext k
    have hk : red.lift (ix3 b t u) k = ix4 b t u k :=
      funext fun a => Fin.ext (by match a with | ⟨0, _⟩ => rfl | ⟨1, _⟩ => rfl | ⟨2, _⟩ => rfl | ⟨3, _⟩ => rfl)
    show val_main_v8 (F := Ideal) x0 x1 x2 x3 (red.lift (ix3 b t u) k) = _
    rw [hk]
    exact logits_eq x0 x1 x2 x3 b t u k
  rw [hf]
  rfl

/-- The maximum with −∞ once more is still the row's maximum. -/
theorem rowmax_eq (b : Fin 8) (t : Fin 256) (u : Fin 64) :
    val_main_v11 (F := Ideal) x0 x1 x2 x3 (ix3 b t u) = Cert.Joiner.rowMax (Cert.Joiner.logitSum x0 x1 x2 x3 b t u) := by
  rw [val_main_v11_apply, val_main_v10_apply, val_main_cst_0_apply, fold_eq]
  exact Cert.Joiner.max_negInf_rowMax _

/-- The numerator: exp of the logit minus the row's maximum. -/
theorem expo_eq (b : Fin 8) (t : Fin 256) (u : Fin 64) (v : Fin 128) :
    val_main_v15 (F := Ideal) x0 x1 x2 x3 (ix4 b t u v)
      = Ideal.exp (Cert.Joiner.logitSum x0 x1 x2 x3 b t u v - Cert.Joiner.rowMax (Cert.Joiner.logitSum x0 x1 x2 x3 b t u)) := by
  rw [val_main_v15_apply, val_main_v14_apply, val_main_v13_apply, val_main_v12_apply, logits_eq]
  have hi : idx_main_v12 (idx_main_v13 (ix4 b t u v)) = ix3 b t u :=
    funext fun a => Fin.ext (by match a with | ⟨0, _⟩ => rfl | ⟨1, _⟩ => rfl | ⟨2, _⟩ => rfl)
  rw [hi, rowmax_eq]
  rfl

/-- The denominator: the word of zero is the real 0, so what is left is the sum of the row's 128 numerators. -/
theorem denom_eq (b : Fin 8) (t : Fin 256) (u : Fin 64) :
    val_main_v16 (F := Ideal) x0 x1 x2 x3 (ix3 b t u)
      = ∑ k : Fin 128, Ideal.exp (Cert.Joiner.logitSum x0 x1 x2 x3 b t u k
          - Cert.Joiner.rowMax (Cert.Joiner.logitSum x0 x1 x2 x3 b t u)) := by
  rw [val_main_v16_apply, val_main_cst_1_apply, Ideal.ofBits_def, Ideal.ofBits_zero_f32, zero_add]
  refine Finset.sum_congr rfl fun k _ => ?_
  have hi : idx_main_v16 (ix3 b t u) k = ix4 b t u k :=
    funext fun a => Fin.ext (by match a with | ⟨0, _⟩ => rfl | ⟨1, _⟩ => rfl | ⟨2, _⟩ => rfl | ⟨3, _⟩ => rfl)
  rw [hi]
  exact expo_eq x0 x1 x2 x3 b t u k

/-- The reference's result, entry by entry, is the softmax of the row of logits. -/
theorem ref_eq : Cert.ReferenceIdeal.Read.val_main_v19 (F := Ideal) x0 x1 x2 x3 = Cert.Joiner.GSum x0 x1 x2 x3 := by
  funext i
  obtain ⟨b, t, u, v, rfl⟩ : ∃ b t u v, i = ix4 b t u v := ⟨i 0, i 1, i 2, i 3, eq_ix4 i⟩
  rw [val_main_v19_apply, expo_eq, val_main_v18_apply, val_main_v17_apply]
  have hi : idx_main_v17 (idx_main_v18 (ix4 b t u v)) = ix3 b t u :=
    funext fun a => Fin.ext (by match a with | ⟨0, _⟩ => rfl | ⟨1, _⟩ => rfl | ⟨2, _⟩ => rfl)
  rw [hi, denom_eq]
  rfl

end Cert.Joiner.RefIsG

end
-- ==== Proof.KernelMatmul.lean ====
/-
  The kernel's two matrix products read at an entry.

  Both contract the hidden axis (1024) of a block of rows with the hidden axis of the weight [128, 1024], into a zero
  accumulator: entry (r, v) is the sum over h of row r at h times weight row v at h. The encoder's product then has the
  bias added along its rows: entry (t, v) gains bias v.
-/
import proofs.«180478_j56075093017101_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Joiner.KernelMatmul

open Cert.KernelIdeal Cert.KernelIdeal.Gen Idealize.ShloMosaic Idealize.ShloMosaic.ValueIdx

/-! The operand indices of the two products, coordinate by coordinate: the row coordinate comes from the result index,
    the hidden coordinate from the contraction index. -/

theorem enc_lhs_row (i : S256x128.Idx) (q : dot_S256x1024_S128x1024_S256x128_1_1_0_0_n_n.contr.Idx) :
    (dot_S256x1024_S128x1024_S256x128_1_1_0_0_n_n.lhsIdx i q 0).val = (i 0).val := by
  unfold DotDims.lhsIdx
  rw [dif_neg (show ¬(0 : Fin S256x1024.rank) ∈ dot_S256x1024_S128x1024_S256x128_1_1_0_0_n_n.lhsBatch by decide),
    dif_pos (show (0 : Fin S256x1024.rank) ∈ dot_S256x1024_S128x1024_S256x128_1_1_0_0_n_n.lhsNonContracting by decide)]
  rfl
theorem enc_lhs_hid (i : S256x128.Idx) (q : dot_S256x1024_S128x1024_S256x128_1_1_0_0_n_n.contr.Idx) :
    (dot_S256x1024_S128x1024_S256x128_1_1_0_0_n_n.lhsIdx i q 1).val = (q ⟨0, by decide⟩).val :=
  dot_S256x1024_S128x1024_S256x128_1_1_0_0_n_n.lhsIdx_val_of_single rfl i q
theorem enc_rhs_row (i : S256x128.Idx) (q : dot_S256x1024_S128x1024_S256x128_1_1_0_0_n_n.contr.Idx) :
    (dot_S256x1024_S128x1024_S256x128_1_1_0_0_n_n.rhsIdx i q 0).val = (i 1).val := by
  unfold DotDims.rhsIdx
  rw [dif_neg (show ¬(0 : Fin S128x1024.rank) ∈ dot_S256x1024_S128x1024_S256x128_1_1_0_0_n_n.rhsBatch by decide),
    dif_pos (show (0 : Fin S128x1024.rank) ∈ dot_S256x1024_S128x1024_S256x128_1_1_0_0_n_n.rhsNonContracting by decide)]
  rfl
theorem enc_rhs_hid (i : S256x128.Idx) (q : dot_S256x1024_S128x1024_S256x128_1_1_0_0_n_n.contr.Idx) :
    (dot_S256x1024_S128x1024_S256x128_1_1_0_0_n_n.rhsIdx i q 1).val = (q ⟨0, by decide⟩).val :=
  dot_S256x1024_S128x1024_S256x128_1_1_0_0_n_n.rhsIdx_val_of_single rfl i q

theorem dec_lhs_row (i : S64x128.Idx) (q : dot_S64x1024_S128x1024_S64x128_1_1_0_0_n_n.contr.Idx) :
    (dot_S64x1024_S128x1024_S64x128_1_1_0_0_n_n.lhsIdx i q 0).val = (i 0).val := by
  unfold DotDims.lhsIdx
  rw [dif_neg (show ¬(0 : Fin S64x1024.rank) ∈ dot_S64x1024_S128x1024_S64x128_1_1_0_0_n_n.lhsBatch by decide),
    dif_pos (show (0 : Fin S64x1024.rank) ∈ dot_S64x1024_S128x1024_S64x128_1_1_0_0_n_n.lhsNonContracting by decide)]
  rfl
theorem dec_lhs_hid (i : S64x128.Idx) (q : dot_S64x1024_S128x1024_S64x128_1_1_0_0_n_n.contr.Idx) :
    (dot_S64x1024_S128x1024_S64x128_1_1_0_0_n_n.lhsIdx i q 1).val = (q ⟨0, by decide⟩).val :=
  dot_S64x1024_S128x1024_S64x128_1_1_0_0_n_n.lhsIdx_val_of_single rfl i q
theorem dec_rhs_row (i : S64x128.Idx) (q : dot_S64x1024_S128x1024_S64x128_1_1_0_0_n_n.contr.Idx) :
    (dot_S64x1024_S128x1024_S64x128_1_1_0_0_n_n.rhsIdx i q 0).val = (i 1).val := by
  unfold DotDims.rhsIdx
  rw [dif_neg (show ¬(0 : Fin S128x1024.rank) ∈ dot_S64x1024_S128x1024_S64x128_1_1_0_0_n_n.rhsBatch by decide),
    dif_pos (show (0 : Fin S128x1024.rank) ∈ dot_S64x1024_S128x1024_S64x128_1_1_0_0_n_n.rhsNonContracting by decide)]
  rfl
theorem dec_rhs_hid (i : S64x128.Idx) (q : dot_S64x1024_S128x1024_S64x128_1_1_0_0_n_n.contr.Idx) :
    (dot_S64x1024_S128x1024_S64x128_1_1_0_0_n_n.rhsIdx i q 1).val = (q ⟨0, by decide⟩).val :=
  dot_S64x1024_S128x1024_S64x128_1_1_0_0_n_n.rhsIdx_val_of_single rfl i q

/-- The encoder-side product at (t, v): the contraction index is the hidden coordinate. -/
theorem enc_matmul_apply (A : FVec Ideal S256x1024 .bf16) (B : FVec Ideal S128x1024 .bf16) (t : Fin 256) (v : Fin 128) :
    matmul dot_S256x1024_S128x1024_S256x128_1_1_0_0_n_n none A B (constant (F := Ideal) S256x128 .f32 0x00000000#32) (ix2 t v)
      = ∑ h : Fin 1024, A (ix2 t h) * B (ix2 v h) := by
  simp only [matmul]
  rw [Ideal.matmul_constant_zero_apply,
    ← Equiv.sum_comp (ValueIdx.contrEquiv1 dot_S256x1024_S128x1024_S256x128_1_1_0_0_n_n 1024 rfl rfl).symm]
  refine Finset.sum_congr rfl fun k _ => ?_
  have hk := ValueIdx.contrEquiv1_symm_val dot_S256x1024_S128x1024_S256x128_1_1_0_0_n_n 1024 rfl rfl k
  have el : dot_S256x1024_S128x1024_S256x128_1_1_0_0_n_n.lhsIdx (ix2 t v)
      ((ValueIdx.contrEquiv1 dot_S256x1024_S128x1024_S256x128_1_1_0_0_n_n 1024 rfl rfl).symm k) = ix2 t k :=
    funext fun a => Fin.ext (by
      match a with
      | ⟨0, _⟩ => exact enc_lhs_row _ _
      | ⟨1, _⟩ => exact (enc_lhs_hid _ _).trans hk)
  have er : dot_S256x1024_S128x1024_S256x128_1_1_0_0_n_n.rhsIdx (ix2 t v)
      ((ValueIdx.contrEquiv1 dot_S256x1024_S128x1024_S256x128_1_1_0_0_n_n 1024 rfl rfl).symm k) = ix2 v k :=
    funext fun a => Fin.ext (by
      match a with
      | ⟨0, _⟩ => exact enc_rhs_row _ _
      | ⟨1, _⟩ => exact (enc_rhs_hid _ _).trans hk)
  rw [el, er]

/-- The decoder-side product at (u, v). -/
theorem dec_matmul_apply (A : FVec Ideal S64x1024 .bf16) (B : FVec Ideal S128x1024 .bf16) (u : Fin 64) (v : Fin 128) :
    matmul dot_S64x1024_S128x1024_S64x128_1_1_0_0_n_n none A B (constant (F := Ideal) S64x128 .f32 0x00000000#32) (ix2 u v)
      = ∑ h : Fin 1024, A (ix2 u h) * B (ix2 v h) := by
  simp only [matmul]
  rw [Ideal.matmul_constant_zero_apply,
    ← Equiv.sum_comp (ValueIdx.contrEquiv1 dot_S64x1024_S128x1024_S64x128_1_1_0_0_n_n 1024 rfl rfl).symm]
  refine Finset.sum_congr rfl fun k _ => ?_
  have hk := ValueIdx.contrEquiv1_symm_val dot_S64x1024_S128x1024_S64x128_1_1_0_0_n_n 1024 rfl rfl k
  have el : dot_S64x1024_S128x1024_S64x128_1_1_0_0_n_n.lhsIdx (ix2 u v)
      ((ValueIdx.contrEquiv1 dot_S64x1024_S128x1024_S64x128_1_1_0_0_n_n 1024 rfl rfl).symm k) = ix2 u k :=
    funext fun a => Fin.ext (by
      match a with
      | ⟨0, _⟩ => exact dec_lhs_row _ _
      | ⟨1, _⟩ => exact (dec_lhs_hid _ _).trans hk)
  have er : dot_S64x1024_S128x1024_S64x128_1_1_0_0_n_n.rhsIdx (ix2 u v)
      ((ValueIdx.contrEquiv1 dot_S64x1024_S128x1024_S64x128_1_1_0_0_n_n 1024 rfl rfl).symm k) = ix2 v k :=
    funext fun a => Fin.ext (by
      match a with
      | ⟨0, _⟩ => exact dec_rhs_row _ _
      | ⟨1, _⟩ => exact (dec_rhs_hid _ _).trans hk)
  rw [el, er]

/-- The encoder's product with the bias added, at (t, v), from the batch's encoder rows `P0`, the weight `P1`, the bias `P2`. -/
theorem pay3_apply (P0 : Vec Ideal S1x256x1024 .f32) (P1 : Vec Ideal S128x1024 .bf16) (P2 : Vec Ideal S128 .f32)
    (t : Fin 256) (v : Fin 128) :
    k0_pay3 (F := Ideal) P0 P1 P2 (ix2 t v)
      = (∑ h : Fin 1024, P0 (ix3 (0 : Fin 1) t h) * P1 (ix2 v h)) + P2 (ix1 v) := by
  unfold k0_pay3 k0_pay2
  show matmul dot_S256x1024_S128x1024_S256x128_1_1_0_0_n_n none
        (truncf .bf16 (shapeCast S256x1024 P0 shapeCasts_S1x256x1024_S256x1024) bitsLt_bf16_f32)
        (shapeCast S128x1024 P1 shapeCasts_S128x1024_S128x1024) (constant (F := Ideal) S256x128 .f32 0x00000000#32) (ix2 t v)
      + broadcastTo S256x128 (shapeCast S1x128 P2 shapeCasts_S128_S1x128) broadcasts_S1x128_S256x128 (ix2 t v) = _
  rw [enc_matmul_apply, shapeCast_self, broadcastTo_1b_ab_apply, shapeCast_a_1a_apply]
  refine congrArg (· + P2 (ix1 v)) (Finset.sum_congr rfl fun h _ => ?_)
  show shapeCast S256x1024 P0 shapeCasts_S1x256x1024_S256x1024 (ix2 t h) * _ = _
  rw [shapeCast_1ab_ab_apply]

/-- The decoder's product at (u, v), from the batch's decoder rows `P3` and the weight `P1`. -/
theorem pay4_apply (P3 : Vec Ideal S1x64x1024 .f32) (P1 : Vec Ideal S128x1024 .bf16) (u : Fin 64) (v : Fin 128) :
    k0_pay4 (F := Ideal) P3 P1 (ix2 u v) = ∑ h : Fin 1024, P3 (ix3 (0 : Fin 1) u h) * P1 (ix2 v h) := by
  unfold k0_pay4 k0_pay2
  show matmul dot_S64x1024_S128x1024_S64x128_1_1_0_0_n_n none
        (truncf .bf16 (shapeCast S64x1024 P3 shapeCasts_S1x64x1024_S64x1024) bitsLt_bf16_f32)
        (shapeCast S128x1024 P1 shapeCasts_S128x1024_S128x1024) (constant (F := Ideal) S64x128 .f32 0x00000000#32) (ix2 u v) = _
  rw [dec_matmul_apply, shapeCast_self]
  refine Finset.sum_congr rfl fun h _ => ?_
  show shapeCast S64x1024 P3 shapeCasts_S1x64x1024_S64x1024 (ix2 u h) * _ = _
  rw [shapeCast_1ab_ab_apply]

end Cert.Joiner.KernelMatmul

end
-- ==== Proof.KernelRow.lean ====
/-
  The kernel's row operations read at an entry, for one chunk of sixteen decoder steps.

  The body forms, per chunk, the [256, 16, 128] array of logits — entry (t, u', v) is the encoder-side value at (t, v)
  plus the decoder-side value at (o + u', v), with o the chunk's first decoder step —, takes the maximum and later a sum
  over the last axis (128 lanes) into [256, 16], and copies such a [256, 16] array back along the last axis.
-/
import proofs.«180478_j56075093017101_2_alg».proof.Proof.Gen.KernelIdeal.Skeleton
import proofs.«180478_j56075093017101_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Joiner.KernelRow

open Cert.KernelIdeal Cert.KernelIdeal.Gen Idealize.ShloMosaic Idealize.ShloMosaic.ValueIdx

/-- A chunk's logits at (t, u', v): the encoder-side array `A` at (t, v), copied along the chunk axis, plus the
    decoder-side array `D` at (u, v) with u = o + u', the chunk cut out of `D` at offset o and copied along the encoder axis. -/
theorem chunk_logits_apply (o : Nat) (hs : S64x128.Slices ![o, 0] S16x128) (A : FVec Ideal S256x128 .f32)
    (D : FVec Ideal S64x128 .f32) (t : Fin 256) (u' : Fin 16) (v : Fin 128) (u : Fin 64) (hu : u.val = o + u'.val) :
    addf (broadcastTo S256x16x128 (shapeCast S256x1x128 A shapeCasts_S256x128_S256x1x128) broadcasts_S256x1x128_S256x16x128)
        (broadcastTo S256x16x128 (shapeCast S1x16x128 (extractStridedSlice S16x128 ![o, 0] D hs) shapeCasts_S16x128_S1x16x128)
          broadcasts_S1x16x128_S256x16x128) (ix3 t u' v)
      = A (ix2 t v) + D (ix2 u v) := by
  show broadcastTo S256x16x128 (shapeCast S256x1x128 A shapeCasts_S256x128_S256x1x128) broadcasts_S256x1x128_S256x16x128 (ix3 t u' v)
      + broadcastTo S256x16x128 (shapeCast S1x16x128 (extractStridedSlice S16x128 ![o, 0] D hs) shapeCasts_S16x128_S1x16x128)
          broadcasts_S1x16x128_S256x16x128 (ix3 t u' v) = _
  refine congrArg₂ (· + ·) ?_ ?_
  · refine (broadcastTo_apply _ _ (ix3 t u' v) (ix3 t (0 : Fin 1) v) (fun a => ?_)).trans ?_
    · match a with
      | ⟨0, _⟩ => show t.val = if (256 : Nat) = 1 then 0 else t.val; rw [if_neg (by decide)]
      | ⟨1, _⟩ => show 0 = if (1 : Nat) = 1 then 0 else u'.val; rw [if_pos rfl]
      | ⟨2, _⟩ => show v.val = if (128 : Nat) = 1 then 0 else v.val; rw [if_neg (by decide)]
    · exact shapeCast_apply _ _ _ (ix2 t v) (by
        rw [Shape.rowMajor_val_two, Shape.rowMajor_val_three]
        show t.val * 128 + v.val = (t.val * 1 + 0) * 128 + v.val
        omega)
  · refine (broadcastTo_apply _ _ (ix3 t u' v) (ix3 (0 : Fin 1) u' v) (fun a => ?_)).trans ?_
    · match a with
      | ⟨0, _⟩ => show 0 = if (1 : Nat) = 1 then 0 else t.val; rw [if_pos rfl]
      | ⟨1, _⟩ => show u'.val = if (16 : Nat) = 1 then 0 else u'.val; rw [if_neg (by decide)]
      | ⟨2, _⟩ => show v.val = if (128 : Nat) = 1 then 0 else v.val; rw [if_neg (by decide)]
    · refine (shapeCast_ab_1ab_apply _ _ (0 : Fin 1) u' v).trans ?_
      exact extractStridedSlice_apply ![o, 0] D hs (ix2 u' v) (ix2 u v) (fun a => by
        match a with
        | ⟨0, _⟩ => show u.val = o + u'.val; exact hu
        | ⟨1, _⟩ => show v.val = 0 + v.val; omega)

/-- A [256, 16] array copied along a new last axis of 128 lanes, at (t, u', v), is the array at (t, u'). -/
theorem keep_apply (M : FVec Ideal S256x16 .f32) (t : Fin 256) (u' : Fin 16) (v : Fin 128) :
    broadcastTo S256x16x128 (shapeCast S256x16x1 M shapeCasts_S256x16_S256x16x1) broadcasts_S256x16x1_S256x16x128 (ix3 t u' v)
      = M (ix2 t u') := by
  refine (broadcastTo_apply _ _ (ix3 t u' v) (ix3 t u' (0 : Fin 1)) (fun a => ?_)).trans ?_
  · match a with
    | ⟨0, _⟩ => show t.val = if (256 : Nat) = 1 then 0 else t.val; rw [if_neg (by decide)]
    | ⟨1, _⟩ => show u'.val = if (16 : Nat) = 1 then 0 else u'.val; rw [if_neg (by decide)]
    | ⟨2, _⟩ => show 0 = if (1 : Nat) = 1 then 0 else v.val; rw [if_pos rfl]
  · exact shapeCast_apply _ _ _ (ix2 t u') (by
      rw [Shape.rowMajor_val_two, Shape.rowMajor_val_three]
      show t.val * 16 + u'.val = (t.val * 16 + u'.val) * 1 + 0
      omega)

/-- Dropping the lane axis of a [256, 16, 128] array leaves a [256, 16] one; the index (t, u') with lane k put back is (t, u', k). -/
theorem lane_lift (h : S256x16x128.Reduces [2] S256x16) (t : Fin 256) (u' : Fin 16) (k : Fin 128) :
    h.lift (ix2 t u') k = ix3 t u' k :=
  funext fun a => Fin.ext (by match a with | ⟨0, _⟩ => rfl | ⟨1, _⟩ => rfl | ⟨2, _⟩ => rfl)

/-- The maximum over the lanes, started from the word of −∞, at (t, u'): the row maximum of the 128 entries of (t, u'). -/
theorem lane_max_apply (X : FVec Ideal S256x16x128 .f32) (hφ : FKind.Formats .f32)
    (hacc : (0xFF800000#32 : BitVec 32) = FKind.maximumf.neutral .f32 hφ) (t : Fin 256) (u' : Fin 16) :
    multiReduction .maximumf [2] S256x16 X 0xFF800000#32 reduces_S256x16x128_S256x16 hφ hacc (ix2 t u')
      = Cert.Joiner.rowMax (fun v => X (ix3 t u' v)) := by
  refine (Ideal.multiReduction_maximumf_single X 0xFF800000#32 reduces_S256x16x128_S256x16 hφ hacc (ix2 t u')).trans ?_
  have hf : (X ∘ reduces_S256x16x128_S256x16.lift (ix2 t u')) = fun v => X (ix3 t u' v) :=
    funext fun k => congrArg X (lane_lift _ t u' k)
  rw [hf]
  rfl

/-- The sum over the lanes at (t, u'): the sum of the 128 entries of (t, u'). -/
theorem lane_sum_apply (X : FVec Ideal S256x16x128 .f32) (hφ : FKind.Formats .f32)
    (hacc : (0x00000000#32 : BitVec 32) = FKind.add.neutral .f32 hφ) (t : Fin 256) (u' : Fin 16) :
    multiReduction .add [2] S256x16 X 0x00000000#32 reduces_S256x16x128_S256x16 hφ hacc (ix2 t u')
      = ∑ v : Fin 128, X (ix3 t u' v) := by
  refine (Ideal.multiReduction_add_single X 0x00000000#32 reduces_S256x16x128_S256x16 hφ hacc (ix2 t u')).trans ?_
  exact Finset.sum_congr rfl fun k _ => congrArg X (lane_lift _ t u' k)

/-- The softmax numerator of a [256, 16, 128] array of logits at (t, u', v): exp of the entry minus its row's maximum, the
    maxima taken over the lanes and copied back along them. -/
theorem soft_num_apply (X : FVec Ideal S256x16x128 .f32) (hφ : FKind.Formats .f32)
    (hacc : (0xFF800000#32 : BitVec 32) = FKind.maximumf.neutral .f32 hφ) (t : Fin 256) (u' : Fin 16) (v : Fin 128) :
    exp (subf X (broadcastTo S256x16x128 (shapeCast S256x16x1
        (multiReduction .maximumf [2] S256x16 X 0xFF800000#32 reduces_S256x16x128_S256x16 hφ hacc) shapeCasts_S256x16_S256x16x1)
        broadcasts_S256x16x1_S256x16x128)) (ix3 t u' v)
      = Ideal.exp (X (ix3 t u' v) - Cert.Joiner.rowMax (fun k => X (ix3 t u' k))) := by
  show Ideal.exp (X (ix3 t u' v) - broadcastTo S256x16x128 (shapeCast S256x16x1
        (multiReduction .maximumf [2] S256x16 X 0xFF800000#32 reduces_S256x16x128_S256x16 hφ hacc) shapeCasts_S256x16_S256x16x1)
        broadcasts_S256x16x1_S256x16x128 (ix3 t u' v)) = _
  rw [keep_apply, lane_max_apply]

/-- The softmax denominator at (t, u'): the sum over the lanes of the numerators of (t, u'). -/
theorem soft_den_apply (X : FVec Ideal S256x16x128 .f32) (hφ : FKind.Formats .f32)
    (hacc : (0xFF800000#32 : BitVec 32) = FKind.maximumf.neutral .f32 hφ) (hφ' : FKind.Formats .f32)
    (hacc' : (0x00000000#32 : BitVec 32) = FKind.add.neutral .f32 hφ') (t : Fin 256) (u' : Fin 16) :
    multiReduction .add [2] S256x16 (exp (subf X (broadcastTo S256x16x128 (shapeCast S256x16x1
        (multiReduction .maximumf [2] S256x16 X 0xFF800000#32 reduces_S256x16x128_S256x16 hφ hacc) shapeCasts_S256x16_S256x16x1)
        broadcasts_S256x16x1_S256x16x128))) 0x00000000#32 reduces_S256x16x128_S256x16 hφ' hacc' (ix2 t u')
      = ∑ v : Fin 128, Ideal.exp (X (ix3 t u' v) - Cert.Joiner.rowMax (fun k => X (ix3 t u' k))) :=
  (lane_sum_apply _ hφ' hacc' t u').trans (Finset.sum_congr rfl fun v _ => soft_num_apply X hφ hacc t u' v)

end Cert.Joiner.KernelRow

end
-- ==== Proof.KernelPay.lean ====
/-
  What one grid point of the kernel leaves in its output block, read at the extended reals.

  The block [1, 256, 64, 128] is stored in four chunks of sixteen decoder steps. The entry at (0, t, u, v) lies in chunk
  u / 16 at the chunk's step u % 16; it is exp (logit (t, u, v) − m) divided by the sum over the 128 lanes k of
  exp (logit (t, u, k) − m), with m the maximum of the 128 logits of (t, u) and logit (t, u, v) the encoder-side value
  (product with the weight plus bias) at (t, v) plus the decoder-side product at (u, v). Each chunk computes its maxima
  and sums from its own sixteen decoder steps, so the chunk an entry lies in decides which term is read; all four read
  the same function of (t, u).
-/
import proofs.«180478_j56075093017101_2_alg».proof.Proof.Gen.KernelIdeal.Value
import proofs.«180478_j56075093017101_2_alg».proof.Proof.Spec
import proofs.«180478_j56075093017101_2_alg».proof.Proof.KernelMatmul
import proofs.«180478_j56075093017101_2_alg».proof.Proof.KernelRow
import Idealize.ShloMosaic.PureOps.Ideal.Laws
import Idealize.ShloMosaic.Lib.ValueIdx
import Idealize.ShloMosaic.Lib.ValueLayout

noncomputable section

namespace Cert.Joiner.KernelPay

open Cert.KernelIdeal Cert.KernelIdeal.Gen Cert.KernelIdeal.Value Idealize.ShloMosaic Idealize.ShloMosaic.ValueIdx
open Cert.Joiner.KernelMatmul Cert.Joiner.KernelRow

variable (P0 : Vec Ideal S1x256x1024 .f32) (P1 : Vec Ideal S128x1024 .bf16) (P2 : Vec Ideal S128 .f32)
  (P3 : Vec Ideal S1x64x1024 .f32)

/-- The row of 128 logits of (t, u), from the encoder-side and decoder-side values. -/
def row (t : Fin 256) (u : Fin 64) : Fin 128 → EReal :=
  fun v => k0_pay3 (F := Ideal) P0 P1 P2 (ix2 t v) + k0_pay4 (F := Ideal) P3 P1 (ix2 u v)

/-- Chunk j's maxima at (t, u'): the row maximum of the logits of (t, 16 j + u'). -/
theorem chunk_max_apply (j : Fin 4) (t : Fin 256) (u' : Fin 16) (u : Fin 64) (hu : u.val = 16 * j.val + u'.val) :
    Fam4_2 (F := Ideal) P0 P1 P2 P3 j (ix2 t u') = Cert.Joiner.rowMax (row P0 P1 P2 P3 t u) := by
  match j with
  | ⟨0, _⟩ =>
    exact (lane_max_apply _ (.inl rfl) rfl t u').trans (congrArg Cert.Joiner.rowMax (funext fun v =>
      chunk_logits_apply 0 slices_S64x128_o0_0_S16x128 _ _ t u' v u (by simpa using hu)))
  | ⟨1, _⟩ =>
    exact (lane_max_apply _ (.inl rfl) rfl t u').trans (congrArg Cert.Joiner.rowMax (funext fun v =>
      chunk_logits_apply 16 slices_S64x128_o16_0_S16x128 _ _ t u' v u (by simpa using hu)))
  | ⟨2, _⟩ =>
    exact (lane_max_apply _ (.inl rfl) rfl t u').trans (congrArg Cert.Joiner.rowMax (funext fun v =>
      chunk_logits_apply 32 slices_S64x128_o32_0_S16x128 _ _ t u' v u (by simpa using hu)))
  | ⟨3, _⟩ =>
    exact (lane_max_apply _ (.inl rfl) rfl t u').trans (congrArg Cert.Joiner.rowMax (funext fun v =>
      chunk_logits_apply 48 slices_S64x128_o48_0_S16x128 _ _ t u' v u (by simpa using hu)))

/-- With the chunk's logits identified, numerators and row maxima are those of the row of (t, u). -/
theorem den_of_row (X : FVec Ideal S256x16x128 .f32) (t : Fin 256) (u' : Fin 16) (u : Fin 64)
    (hX : ∀ v, X (ix3 t u' v) = row P0 P1 P2 P3 t u v) :
    (∑ v : Fin 128, Ideal.exp (X (ix3 t u' v) - Cert.Joiner.rowMax (fun k => X (ix3 t u' k))))
      = ∑ v : Fin 128, Ideal.exp (row P0 P1 P2 P3 t u v - Cert.Joiner.rowMax (row P0 P1 P2 P3 t u)) := by
  have hf : (fun k => X (ix3 t u' k)) = row P0 P1 P2 P3 t u := funext hX
  rw [hf]
  exact Finset.sum_congr rfl fun v _ => by rw [hX v]

/-- Chunk j's sums at (t, u'): the softmax denominator of the row of (t, 16 j + u'). -/
theorem chunk_sum_apply (j : Fin 4) (t : Fin 256) (u' : Fin 16) (u : Fin 64) (hu : u.val = 16 * j.val + u'.val) :
    Fam4_3 (F := Ideal) P0 P1 P2 P3 j (ix2 t u')
      = ∑ v : Fin 128, Ideal.exp (row P0 P1 P2 P3 t u v - Cert.Joiner.rowMax (row P0 P1 P2 P3 t u)) := by
  match j with
  | ⟨0, _⟩ =>
    exact (soft_den_apply _ (.inl rfl) rfl (.inl rfl) rfl t u').trans (den_of_row P0 P1 P2 P3 _ t u' u fun v =>
      chunk_logits_apply 0 slices_S64x128_o0_0_S16x128 _ _ t u' v u (by simpa using hu))
  | ⟨1, _⟩ =>
    exact (soft_den_apply _ (.inl rfl) rfl (.inl rfl) rfl t u').trans (den_of_row P0 P1 P2 P3 _ t u' u fun v =>
      chunk_logits_apply 16 slices_S64x128_o16_0_S16x128 _ _ t u' v u (by simpa using hu))
  | ⟨2, _⟩ =>
    exact (soft_den_apply _ (.inl rfl) rfl (.inl rfl) rfl t u').trans (den_of_row P0 P1 P2 P3 _ t u' u fun v =>
      chunk_logits_apply 32 slices_S64x128_o32_0_S16x128 _ _ t u' v u (by simpa using hu))
  | ⟨3, _⟩ =>
    exact (soft_den_apply _ (.inl rfl) rfl (.inl rfl) rfl t u').trans (den_of_row P0 P1 P2 P3 _ t u' u fun v =>
      chunk_logits_apply 48 slices_S64x128_o48_0_S16x128 _ _ t u' v u (by simpa using hu))

/-- The row of logits of (t, u) is the specification's split logit over the batch's rows. -/
theorem row_eq (t : Fin 256) (u : Fin 64) :
    row P0 P1 P2 P3 t u = fun v => ((∑ h : Fin 1024, P0 (ix3 (0 : Fin 1) t h) * P1 (ix2 v h)) + P2 (ix1 v))
      + ∑ h : Fin 1024, P3 (ix3 (0 : Fin 1) u h) * P1 (ix2 v h) := by
  funext v
  unfold row
  rw [pay3_apply, pay4_apply]

/-- What the four stored chunks leave in the block is the specification's one-batch function of the point's blocks. -/
theorem E4_eq (y : S1x256x64x128.Idx) :
    Cert.KernelIdeal.Value.E4 (F := Ideal) P0 P1 P2 P3 y = Cert.Joiner.blockG P0 P1 P2 P3 y := by
  obtain ⟨z, t, u, v, rfl⟩ : ∃ (z : Fin 1) (t : Fin 256) (u : Fin 64) (v : Fin 128), y = ix4 z t u v :=
    ⟨y 0, y 1, y 2, y 3, eq_ix4 y⟩
  have hu16 : u.val % 16 < 16 := Nat.mod_lt _ (by decide)
  have hsel : u.val = 16 * (sel4 (ix4 z t u v)).val + (⟨u.val % 16, hu16⟩ : Fin 16).val := by
    show u.val = 16 * (u.val / 16) + u.val % 16
    omega
  have h0 : ix4_0 (ix4 z t u v) = ix2 t v :=
    funext fun a => Fin.ext (by match a with | ⟨0, _⟩ => rfl | ⟨1, _⟩ => rfl)
  have h1 : ix4_1 (ix4 z t u v) = ix2 u v :=
    funext fun a => Fin.ext (by match a with | ⟨0, _⟩ => rfl | ⟨1, _⟩ => rfl)
  have h2 : ix4_2 (ix4 z t u v) = ix2 t (⟨u.val % 16, hu16⟩ : Fin 16) :=
    funext fun a => Fin.ext (by match a with | ⟨0, _⟩ => rfl | ⟨1, _⟩ => rfl)
  have h3 : ix4_3 (ix4 z t u v) = ix2 t (⟨u.val % 16, hu16⟩ : Fin 16) :=
    funext fun a => Fin.ext (by match a with | ⟨0, _⟩ => rfl | ⟨1, _⟩ => rfl)
  show Ideal.div (Ideal.exp ((k0_pay3 (F := Ideal) P0 P1 P2 (ix4_0 (ix4 z t u v)) + k0_pay4 (F := Ideal) P3 P1 (ix4_1 (ix4 z t u v)))
        - Fam4_2 (F := Ideal) P0 P1 P2 P3 (sel4 (ix4 z t u v)) (ix4_2 (ix4 z t u v))))
      (Fam4_3 (F := Ideal) P0 P1 P2 P3 (sel4 (ix4 z t u v)) (ix4_3 (ix4 z t u v))) = _
  rw [h0, h1, h2, h3, chunk_max_apply P0 P1 P2 P3 _ t _ u hsel, chunk_sum_apply P0 P1 P2 P3 _ t _ u hsel]
  show Cert.Joiner.soft (row P0 P1 P2 P3 t u) v = _
  rw [row_eq]
  rfl

end Cert.Joiner.KernelPay

end
-- ==== Proof.Blocks.lean ====
/-
  From one batch's block to the whole result array.

  The result f32[8, 256, 64, 128] is written in eight blocks, one per batch b: block b is the entries (b, t, u, v).
  An entry (b, t, u, v) depends on row (b, t) of the encoder array, on row (b, u) of the decoder array, on all of the
  weight and on all of the bias: so block b depends only on the encoder's block b (its rows (b, ·)), on the decoder's
  block b and on the whole weight and bias, which is what the program hands the b-th run of its body. The weight
  reaches the body through a copy in a narrower float format, made beforehand; over the extended reals a change of
  format is the identity, so that copy is the weight itself.
  An index (b, t, u, v) lies in block b and in no other, and b ranges over the eight values of the first coordinate:
  the eight blocks tile the array. Hence the array after the run is the one function `G` of the four arguments.
-/
import proofs.«180478_j56075093017101_2_alg».proof.Proof.KernelPay
import Idealize.ShloMosaic.Lib.Pipeline.Value
import Idealize.ShloMosaic.Lib.StableHlo.Run
import Idealize.ShloMosaic.Lib.ValueIdx

noncomputable section

namespace Cert.Joiner.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The weight's copy in the narrower format, as the region finds it, is the weight argument. -/
theorem weight_entry (c : Dev nD) :
    (V m c main_v0 : S128x1024.Idx → EReal) = m ((c : Thread nD τ).loc main_arg2) := by
  dsimp only [Gen.V, Gen.hostOps0]; after_results; rfl

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- What one run of the body leaves in its output block, from the four blocks it is handed. -/
theorem out_eq (x0 : Vec Ideal S1x256x1024 .f32) (x1 : Vec Ideal S1x64x1024 .f32) (x2 : Vec Ideal S128x1024 .bf16)
    (x3 : Vec Ideal S128 .f32) (y : S1x256x64x128.Idx) :
    out0_4 x0 x1 x2 x3 y = Cert.Joiner.blockG x0 x2 x3 x1 y := by
  unfold out0_4
  refine (canon4_eq (View.ld x0 r0_0) (View.ld x2 r0_2) (View.ld x3 r0_3) (View.ld x1 r0_1) y).trans ?_
  rw [Cert.Joiner.KernelPay.E4_eq]
  simp only [View.ld_unit_zero (S := S1x256x1024) zero3, View.ld_unit_zero (S := S1x64x1024) zero3,
    View.ld_unit_zero (S := S128x1024) zero2, View.ld_unit_zero (S := S128) zero1]

/-- The block index of each window at a grid point, decided over the eight points: the encoder's, the decoder's and the
    result's block is the point's batch; the weight and the bias are one block each. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 4) = t.val ∧ win0_4.index t (1 : Fin 4) = 0 ∧ win0_4.index t (2 : Fin 4) = 0
    ∧ win0_4.index t (3 : Fin 4) = 0 ∧ t.val < 8 :=
  (by decide +kernel : ∀ t : Fin grid0.N, _)

/-- The encoder's block at point `t` is the rows (t, ·) of the encoder argument. -/
theorem enc_block (c : Dev nD) (t : Fin cfg0.N) (x : S1x256x1024.Idx) (k : S8x256x1024.Idx)
    (hk0 : (k 0).val = t.val) (hk1 : (k 1).val = (x 1).val) (hk2 : (k 2).val = (x 2).val) :
    (iblk m c 0 t : Vec Ideal S1x256x1024 .f32) x
      = (m ((c : Thread nD τ).loc main_arg0) : S8x256x1024.Idx → EReal) k := by
  obtain ⟨e0, e1, e2, -⟩ := block_index t
  unfold iblk
  rw [View.read_apply]
  show V m c main_arg0 _ = _
  rw [V_main_arg0]
  refine congrArg _ ?_
  funext a; apply Fin.ext
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 256 + 1 * (x 1).val = (k 1).val; omega
  | ⟨2, _⟩ => show win0_0.index t (2 : Fin 3) * 1024 + 1 * (x 2).val = (k 2).val; omega

/-- The decoder's block at point `t` is the rows (t, ·) of the decoder argument. -/
theorem dec_block (c : Dev nD) (t : Fin cfg0.N) (x : S1x64x1024.Idx) (k : S8x64x1024.Idx)
    (hk0 : (k 0).val = t.val) (hk1 : (k 1).val = (x 1).val) (hk2 : (k 2).val = (x 2).val) :
    (iblk m c 1 t : Vec Ideal S1x64x1024 .f32) x
      = (m ((c : Thread nD τ).loc main_arg1) : S8x64x1024.Idx → EReal) k := by
  obtain ⟨-, -, -, e0, e1, e2, -⟩ := block_index t
  unfold iblk
  rw [View.read_apply]
  show V m c main_arg1 _ = _
  rw [V_main_arg1]
  refine congrArg _ ?_
  funext a; apply Fin.ext
  have hx0 : (x 0).val < 1 := (x 0).isLt
  match a with
  | ⟨0, _⟩ => show win0_1.index t (0 : Fin 3) * 1 + 1 * (x 0).val = (k 0).val; omega
  | ⟨1, _⟩ => show win0_1.index t (1 : Fin 3) * 64 + 1 * (x 1).val = (k 1).val; omega
  | ⟨2, _⟩ => show win0_1.index t (2 : Fin 3) * 1024 + 1 * (x 2).val = (k 2).val; omega

/-- The weight's block at every point is the whole weight argument. -/
theorem wt_block (c : Dev nD) (t : Fin cfg0.N) :
    (iblk m c 2 t : Vec Ideal S128x1024 .bf16) = (m ((c : Thread nD τ).loc main_arg2) : S128x1024.Idx → EReal) := by
  obtain ⟨-, -, -, -, -, -, e0, e1, -⟩ := block_index t
  funext x
  unfold iblk
  rw [View.read_apply]
  show (V m c main_v0 : S128x1024.Idx → EReal) _ = _
  rw [weight_entry]
  refine congrArg _ ?_
  funext a; apply Fin.ext
  match a with
  | ⟨0, _⟩ => show win0_2.index t (0 : Fin 2) * 128 + 1 * (x 0).val = (x 0).val; omega
  | ⟨1, _⟩ => show win0_2.index t (1 : Fin 2) * 1024 + 1 * (x 1).val = (x 1).val; omega

/-- The bias's block at every point is the whole bias argument. -/
theorem bias_block (c : Dev nD) (t : Fin cfg0.N) :
    (iblk m c 3 t : Vec Ideal S128 .f32) = (m ((c : Thread nD τ).loc main_arg3) : S128.Idx → EReal) := by
  obtain ⟨-, -, -, -, -, -, -, -, e0, -⟩ := block_index t
  funext x
  unfold iblk
  rw [View.read_apply]
  show V m c main_arg3 _ = _
  rw [V_main_arg3]
  refine congrArg _ ?_
  funext a; apply Fin.ext
  match a with
  | ⟨0, _⟩ => show win0_3.index t (0 : Fin 1) * 128 + 1 * (x 0).val = (x 0).val; omega

/-- One batch's part of the result, from blocks that are the batch's rows of the arguments, is the result array
    at the indices under it. -/
theorem blockG_eq_G (enc : SEnc.Idx → EReal) (dec : SDec.Idx → EReal) (w : SWt.Idx → EReal) (bias : SBias.Idx → EReal)
    (x0 : Vec Ideal S1x256x1024 .f32) (x1 : Vec Ideal S1x64x1024 .f32) (x2 : Vec Ideal S128x1024 .bf16)
    (x3 : Vec Ideal S128 .f32) (b : Fin 8)
    (h0 : ∀ (r : Fin 256) (h : Fin 1024), x0 (ix3 0 r h) = enc (ix3 b r h))
    (h1 : ∀ (u : Fin 64) (h : Fin 1024), x1 (ix3 0 u h) = dec (ix3 b u h))
    (h2 : x2 = w) (h3 : x3 = bias)
    (y : S1x256x64x128.Idx) (i : S8x256x64x128.Idx)
    (hi0 : (i 0).val = b.val) (hi1 : (i 1).val = (y 1).val) (hi2 : (i 2).val = (y 2).val)
    (hi3 : (i 3).val = (y 3).val) :
    Cert.Joiner.blockG x0 x2 x3 x1 y = Cert.Joiner.G enc dec w bias i := by
  have e0 : i 0 = b := Fin.ext hi0
  have e1 : i 1 = y 1 := Fin.ext hi1
  have e2 : i 2 = y 2 := Fin.ext hi2
  have e3 : i 3 = y 3 := Fin.ext hi3
  subst h2 h3
  unfold Cert.Joiner.blockG Cert.Joiner.G Cert.Joiner.logitSplit
  rw [e0, e1, e2, e3]
  refine congrArg (fun L => Cert.Joiner.soft L (y 3)) (funext fun v => ?_)
  refine congrArg₂ (· + ·) (congrArg₂ (· + ·) (Finset.sum_congr rfl fun h _ => ?_) rfl) (Finset.sum_congr rfl fun h _ => ?_)
  · exact congrArg (· * _) (h0 _ h)
  · exact congrArg (· * _) (h1 _ h)

/-- What point `t` writes back is block `t` of the result array `G` of the four arguments. -/
theorem flushed_eq (c : Dev nD) (t : Fin cfg0.N) :
    (dats m 0 c).flushed 4 t = ((cfg0.win 4).blk t).view.read (Elt Ideal)
      (Cert.Joiner.G (m ((c : Thread nD τ).loc main_arg0)) (m ((c : Thread nD τ).loc main_arg1))
        (m ((c : Thread nD τ).loc main_arg2)) (m ((c : Thread nD τ).loc main_arg3))) := by
  rw [flushed4]
  obtain ⟨-, -, -, -, -, -, -, -, -, e0, e1, e2, e3, ht⟩ := block_index t
  funext j
  rw [View.read_apply]
  show out0_4 (iblk m c 0 t) (iblk m c 1 t) (iblk m c 2 t) (iblk m c 3 t) _ = Cert.Joiner.G _ _ _ _ _
  refine (out_eq _ _ _ _ _).trans ?_
  have hj0 : (j 0).val < 1 := (j 0).isLt
  refine blockG_eq_G _ _ _ _ _ _ _ _ ⟨t.val, ht⟩ (fun r h => enc_block m c t _ _ rfl rfl rfl)
    (fun u h => dec_block m c t _ _ rfl rfl rfl) (wt_block m c t) (bias_block m c t) _ _ ?_ ?_ ?_ ?_
  · show win0_4.index t (0 : Fin 4) * 1 + 1 * (j 0).val = t.val; omega
  · show win0_4.index t (1 : Fin 4) * 256 + 1 * (j 1).val = (j 1).val; omega
  · show win0_4.index t (2 : Fin 4) * 64 + 1 * (j 2).val = (j 2).val; omega
  · show win0_4.index t (3 : Fin 4) * 128 + 1 * (j 3).val = (j 3).val; omega

/-- An index of the result array is in point `t`'s block iff each coordinate is in the block's range on its axis. -/
theorem mem_blk (t : Fin cfg0.N) (i : S8x256x64x128.Idx) :
    i ∈ ((cfg0.win 4).blk t).view.set ↔ ∀ a : Fin 4, win0_4.index t a * S1x256x64x128.size a ≤ (i a).val
      ∧ (i a).val < win0_4.index t a * S1x256x64x128.size a + S1x256x64x128.size a := by
  show i ∈ ((View.whole main_v1).slice (win0_4.rect t)).set ↔ _
  rw [View.set_slice_whole, Rect.mem_set_unit]
  exact Iff.rfl

/-- The eight blocks tile the array: the index (b, t, u, v) lies in the block of point b. -/
theorem cover (i : S8x256x64x128.Idx) :
    ∃ t : Fin cfg0.N, (cfg0.win 4).flush t = true ∧ i ∈ ((cfg0.win 4).blk t).view.set := by
  have hN : cfg0.N = 8 := N_0
  have hi0 : (i 0).val < 8 := (i 0).isLt
  have hi1 : (i 1).val < 256 := (i 1).isLt
  have hi2 : (i 2).val < 64 := (i 2).isLt
  have hi3 : (i 3).val < 128 := (i 3).isLt
  obtain ⟨t, ht⟩ : ∃ t : Fin cfg0.N, t.val = (i 0).val := ⟨⟨(i 0).val, by rw [hN]; exact hi0⟩, rfl⟩
  obtain ⟨-, -, -, -, -, -, -, -, -, e0, e1, e2, e3, -⟩ := block_index t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 256 ≤ (i 1).val ∧ (i 1).val < win0_4.index t (1 : Fin 4) * 256 + 256; omega
  | ⟨2, _⟩ => show win0_4.index t (2 : Fin 4) * 64 ≤ (i 2).val ∧ (i 2).val < win0_4.index t (2 : Fin 4) * 64 + 64; omega
  | ⟨3, _⟩ => show win0_4.index t (3 : Fin 4) * 128 ≤ (i 3).val ∧ (i 3).val < win0_4.index t (3 : Fin 4) * 128 + 128; omega

/-- The result array after the run is `G` of the four arguments. -/
theorem final (c : Dev nD) : (dats m 0 c).arrAt 4 cfg0.N
    = Cert.Joiner.G (m ((c : Thread nD τ).loc main_arg0)) (m ((c : Thread nD τ).loc main_arg1))
        (m ((c : Thread nD τ).loc main_arg2)) (m ((c : Thread nD τ).loc main_arg3)) :=
  (dats m 0 c).arrAt_eq_of_cover 4 (Cert.Joiner.G (m ((c : Thread nD τ).loc main_arg0)) (m ((c : Thread nD τ).loc main_arg1))
    (m ((c : Thread nD τ).loc main_arg2)) (m ((c : Thread nD τ).loc main_arg3))) (fun t _ => flushed_eq m c t) cover

/-- The run, read: the result array at `G` of the four arguments, the arguments unchanged. -/
theorem run : θ_run defs (onTc (τ := τ) (main (F := Ideal))) ⟨m, fun _ => 0, ρ⟩ fun r => ∀ c : Dev nD,
      r.2.mem ((c : Thread nD τ).loc main_v1)
        = Cert.Joiner.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Joiner.Blocks

end
-- ==== Proof.lean ====
/-
  The joiner kernel against its reference, over the extended reals.

  Both programs compute, for a batch b, an encoder step t, a decoder step u and a vocabulary entry v, the softmax over v of
  the logit  ∑ₕ (enc[b,t,h] + dec[b,u,h]) · W[v,h] + bias[v],  with the row's maximum subtracted before the exponential.
  The reference forms the sum of the two rows first and applies the weight once. The kernel applies the weight to the
  encoder rows and to the decoder rows separately (the weight first copied to a narrower float format, which over the
  extended reals changes nothing), adds the bias to the encoder's part, and adds the two parts entry by entry; it writes
  each batch's [256, 64, 128] block in four chunks of sixteen decoder steps.
  The two logits agree because every argument entry is a real number (the precondition): on reals the product
  distributes over the sum, a finite sum of sums splits, and addition is commutative and associative. The softmax is
  then the same function of the same row of logits on both sides: the maximum folded from −∞ (the reference takes the
  maximum with −∞ once more, which changes nothing), the exponentials, their sum (the reference starts its sum from the
  word of zero), the quotient.

  The modules: Spec (the result as one function of the arguments, and the law joining the two spellings of the logit),
  Finite (the precondition makes every entry real), RefIsG (the reference's stages are the specification), KernelMatmul
  and KernelRow (the body's products, chunk logits, lane maxima and sums at an entry), KernelPay (what a grid point leaves
  in its block), Blocks (the eight blocks tile the result). The frames of the two kernel programs and the runs read
  back are the generated modules'.
-/
import proofs.«180478_j56075093017101_2_alg».proof.Defs
import proofs.«180478_j56075093017101_2_alg».proof.Proof.Gen.Kernel
import proofs.«180478_j56075093017101_2_alg».proof.Proof.Gen.Kernel.Skeleton
import proofs.«180478_j56075093017101_2_alg».proof.Proof.Gen.Kernel.Launch
import proofs.«180478_j56075093017101_2_alg».proof.Proof.Gen.Kernel.Points
import proofs.«180478_j56075093017101_2_alg».proof.Proof.Gen.Kernel.Frame
import proofs.«180478_j56075093017101_2_alg».proof.Proof.Gen.KernelIdeal
import proofs.«180478_j56075093017101_2_alg».proof.Proof.Gen.KernelIdeal.Skeleton
import proofs.«180478_j56075093017101_2_alg».proof.Proof.Gen.KernelIdeal.Launch
import proofs.«180478_j56075093017101_2_alg».proof.Proof.Gen.KernelIdeal.Points
import proofs.«180478_j56075093017101_2_alg».proof.Proof.Gen.KernelIdeal.Frame
import proofs.«180478_j56075093017101_2_alg».proof.Proof.Gen.ReferenceIdeal
import proofs.«180478_j56075093017101_2_alg».proof.Proof.Gen.Pre_finite_inputs
import proofs.«180478_j56075093017101_2_alg».proof.Proof.Gen.KernelIdeal.Value
import proofs.«180478_j56075093017101_2_alg».proof.Proof.Gen.ReferenceIdeal.Run
import proofs.«180478_j56075093017101_2_alg».proof.Proof.Gen.ReferenceIdeal.Read
import proofs.«180478_j56075093017101_2_alg».proof.Proof.Spec
import proofs.«180478_j56075093017101_2_alg».proof.Proof.Finite
import proofs.«180478_j56075093017101_2_alg».proof.Proof.RefIsG
import proofs.«180478_j56075093017101_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's result array is `G` of its arguments; the reference's is `GSum` of its own, which agree with the kernel's;
    on real entries (the precondition) `GSum` is `G`. -/
theorem algebraic : Cert.algebraic_KernelIdeal_ReferenceIdeal := by
  intro m ρ m' ρ' hpre hagree
  refine ⟨fun c => Cert.Joiner.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.Joiner.Blocks.run m ρ, ?_⟩
  refine (θ_run Cert.ReferenceIdeal.defs _ _).mono (fun _ h c => ⟨?_, (h c).2⟩)
    (Cert.ReferenceIdeal.Value.run (F := Ideal) m' ρ')
  obtain ⟨he, hd, hw, -⟩ := Cert.Joiner.Finite.real_of_pre _ _ _ _ (hpre c)
  rw [(h c).1, Cert.ReferenceIdeal.Read.val_main_v19_eq, Cert.Joiner.RefIsG.ref_eq, (hagree c).1, (hagree c).2.1,
    (hagree c).2.2.1, (hagree c).2.2.2]
  exact Cert.Joiner.GSum_eq_G _ _ _ _ he hd hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
